-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S40000x128 .f32) (main_arg1 : IVec S2x640000 32) (main_arg2 : FVec F S128x128 .f32) (main_arg3 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S2000x128 : Shape := ⟨2, ![2000, 128]⟩
abbrev S2000x1 : Shape := ⟨2, ![2000, 1]⟩
abbrev S1x128 : Shape := ⟨2, ![1, 128]⟩

abbrev nBuf : Space → Nat
  | .hbm => 47
  | .vmem => 10
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S40000, .f32⟩
  | .hbm, ⟨12, _⟩ => ⟨S640000x1, .i32⟩
  | .hbm, ⟨13, _⟩ => ⟨S40000, .f32⟩
  | .hbm, ⟨14, _⟩ => ⟨S_, .f32⟩
  | .hbm, ⟨15, _⟩ => ⟨S40000, .f32⟩
  | .hbm, ⟨16, _⟩ => ⟨S40000, .f32⟩
  | .hbm, ⟨17, _⟩ => ⟨S40000, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000, .f32⟩
  | .hbm, ⟨36, _⟩ => ⟨S640000x1, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S40000x128, .f32⟩
  | .hbm, ⟨41, _⟩ => ⟨S640000x1, .i32⟩
  | .hbm, ⟨42, _⟩ => ⟨S40000x128, .f32⟩
  | .hbm, ⟨43, _⟩ => ⟨S40000x1, .f32⟩
  | .hbm, ⟨44, _⟩ => ⟨S128x128, .f32⟩
  | .hbm, ⟨45, _⟩ => ⟨S128x128, .bf16⟩
  | .hbm, ⟨46, _⟩ => ⟨S40000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .bf16⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000_S40000x1_0 : S40000.BroadcastsInDim S40000x1 (![0] : Fin 1 → Fin S40000x1.rank)
  transposes_S128x128_S128x128_1_0 : S128x128.Transposes [1, 0] S128x128
  bitsLt_bf16_f32 : FTy.bits .bf16 < FTy.bits .f32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  gather_S40000_S640000x1_S640000_n_0_n_n_0_1_1_wf : GatherDims.WF S40000 S640000x1 S640000 [] [0] [] [0] [] 1 ![1]
  scatter_S40000x128_S640000x1_S640000x128_1_0_0_1_wf : ScatterDims.WF S40000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S40000x128.size a
  hwx0_1 : ∀ i : grid0.Coords, EltTy.bits .f32 = 32 ∨ (Rect.block (s := S40000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S40000x1.size a
  hwx0_2 : ∀ i : grid0.Coords, EltTy.bits .f32 = 32 ∨ (Rect.block (s := S40000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S40000x128.size a
  hwx0_5 : ∀ i : grid0.Coords, EltTy.bits .f32 = 32 ∨ (Rect.block (s := S40000x128) S2000x128.size (cc0_transform_5 i) (hinb0_5 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S40000, .f32⟩
  | .hbm, ⟨12, _⟩ => ⟨S640000x1, .i32⟩
  | .hbm, ⟨13, _⟩ => ⟨S40000, .f32⟩
  | .hbm, ⟨14, _⟩ => ⟨S_, .f32⟩
  | .hbm, ⟨15, _⟩ => ⟨S40000, .f32⟩
  | .hbm, ⟨16, _⟩ => ⟨S40000, .f32⟩
  | .hbm, ⟨17, _⟩ => ⟨S40000, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000, .f32⟩
  | .hbm, ⟨36, _⟩ => ⟨S640000x1, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S40000x128, .f32⟩
  | .hbm, ⟨41, _⟩ => ⟨S640000x1, .i32⟩
  | .hbm, ⟨42, _⟩ => ⟨S40000x128, .f32⟩
  | .hbm, ⟨43, _⟩ => ⟨S40000x1, .f32⟩
  | .hbm, ⟨44, _⟩ => ⟨S40000x1, .f32⟩
  | .hbm, ⟨45, _⟩ => ⟨S40000x128, .f32⟩
  | .hbm, ⟨46, _⟩ => ⟨S40000x128, .f32⟩
  | .hbm, ⟨47, _⟩ => ⟨S40000x128, .f32⟩
  | .hbm, ⟨48, _⟩ => ⟨S40000x128, .f32⟩
  | .hbm, ⟨49, _⟩ => ⟨S40000x128, .f32⟩
  | .hbm, ⟨50, _⟩ => ⟨S128x128, .f32⟩
  | .hbm, ⟨51, _⟩ => ⟨S40000x128, .f32⟩
  | .hbm, ⟨52, _⟩ => ⟨S1x128, .f32⟩
  | .hbm, ⟨53, _⟩ => ⟨S40000x128, .f32⟩
  | .hbm, ⟨54, _⟩ => ⟨S40000x128, .f32⟩
  | .hbm, ⟨55, _⟩ => ⟨S_, .f32⟩
  | .hbm, ⟨56, _⟩ => ⟨S40000x128, .f32⟩
  | .hbm, ⟨57, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call0_cst : Ref sig .tc := ⟨.hbm, 55, rfl⟩
abbrev main_call0_v0 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  gather_S40000_S640000x1_S640000_n_0_n_n_0_1_1_wf : GatherDims.WF S40000 S640000x1 S640000 [] [0] [] [0] [] 1 ![1]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.GraphConv.lean ====
/-
  One graph-convolution layer on the extended reals, entry by entry.

  With x the node features, agg the neighbour sums, d the column of inverse square roots of the degrees, w the
  weight matrix laid out [K, N] and b the bias row:
    normalized x agg d (p, k) = d(p) · (agg(p, k) + d(p) · x(p, k))
    layer x agg d w b (p, q)  = max (∑ k, normalized(p, k) · w(k, q) + b(q)) 0
  Row p of the result reads only row p of x, agg and d: a block of rows of the result is the layer of the same
  block of rows of the inputs (layer_rows).  Nothing here needs a finite entry: the two programs compute this one
  expression in this one order, so no law of arithmetic is used at all.
-/
import proofs.«135196_j67877663146646_1_alg».proof.Proof.LibDense

noncomputable section

namespace Cert.GraphConv

open Idealize.ShloMosaic Idealize.ShloMosaic.ValueIdx Cert.Lib.Dense
open scoped BigOperators

/-- The symmetric normalization: entry (p, k) is d(p) · (agg(p, k) + d(p) · x(p, k)). -/
def normalized {M K : ℕ} (x agg : (⟨2, ![M, K]⟩ : Shape).Idx → EReal) (d : (⟨2, ![M, 1]⟩ : Shape).Idx → EReal) :
    (⟨2, ![M, K]⟩ : Shape).Idx → EReal :=
  fun i => d (ix2 (i 0) (0 : Fin 1)) * (agg i + d (ix2 (i 0) (0 : Fin 1)) * x i)

theorem normalized_ix2 {M K : ℕ} (x agg : (⟨2, ![M, K]⟩ : Shape).Idx → EReal) (d : (⟨2, ![M, 1]⟩ : Shape).Idx → EReal)
    (p : Fin M) (k : Fin K) :
    normalized x agg d (ix2 p k) = d (ix2 p (0 : Fin 1)) * (agg (ix2 p k) + d (ix2 p (0 : Fin 1)) * x (ix2 p k)) := rfl

/-- The layer: entry (p, q) is the larger of zero and row p of the normalized features against column q of w,
    plus the bias entry q.  Zero is kept as the word both programs print for it. -/
def layer {M K N : ℕ} (x agg : (⟨2, ![M, K]⟩ : Shape).Idx → EReal) (d : (⟨2, ![M, 1]⟩ : Shape).Idx → EReal)
    (w : (⟨2, ![K, N]⟩ : Shape).Idx → EReal) (b : (⟨1, ![N]⟩ : Shape).Idx → EReal) : (⟨2, ![M, N]⟩ : Shape).Idx → EReal :=
  fun i => max (rowDot (normalized x agg d) w (i 0) (i 1) + b (ix1 (i 1))) (Ideal.ofBits .f32 0x00000000#32)

theorem layer_ix2 {M K N : ℕ} (x agg : (⟨2, ![M, K]⟩ : Shape).Idx → EReal) (d : (⟨2, ![M, 1]⟩ : Shape).Idx → EReal)
    (w : (⟨2, ![K, N]⟩ : Shape).Idx → EReal) (b : (⟨1, ![N]⟩ : Shape).Idx → EReal) (p : Fin M) (q : Fin N) :
    layer x agg d w b (ix2 p q)
      = max (rowDot (normalized x agg d) w p q + b (ix1 q)) (Ideal.ofBits .f32 0x00000000#32) := rfl

/-- Row p of the layer depends on row p of the features, of the neighbour sums and of the degree column only:
    two sets of inputs, of any two heights, that agree on a row each give the same row of the result. -/
theorem layer_rows {M M' K N : ℕ} (x agg : (⟨2, ![M, K]⟩ : Shape).Idx → EReal) (d : (⟨2, ![M, 1]⟩ : Shape).Idx → EReal)
    (x' agg' : (⟨2, ![M', K]⟩ : Shape).Idx → EReal) (d' : (⟨2, ![M', 1]⟩ : Shape).Idx → EReal)
    (w : (⟨2, ![K, N]⟩ : Shape).Idx → EReal) (b : (⟨1, ![N]⟩ : Shape).Idx → EReal) (p : Fin M) (p' : Fin M') (q : Fin N)
    (hx : ∀ k : Fin K, x (ix2 p k) = x' (ix2 p' k)) (hagg : ∀ k : Fin K, agg (ix2 p k) = agg' (ix2 p' k))
    (hd : d (ix2 p (0 : Fin 1)) = d' (ix2 p' (0 : Fin 1))) :
    layer x agg d w b (ix2 p q) = layer x' agg' d' w b (ix2 p' q) := by
  rw [layer_ix2, layer_ix2]
  have hrow : rowDot (normalized x agg d) w p q = rowDot (normalized x' agg' d') w p' q := by
    unfold rowDot
    refine Finset.sum_congr rfl fun k _ => ?_
    rw [normalized_ix2, normalized_ix2, hx k, hagg k, hd]
  rw [hrow]

end Cert.GraphConv

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.BlockLayer.lean ====
/-
  What the kernel's body stores at one grid point, entry by entry.

  The body loads a block of 2000 rows of the node features x, of the neighbour sums agg and of the degree column d,
  the whole weight matrix w (already transposed to [128, 128], contraction axis first) and the bias b, and stores
      max (((d ⊙ (agg + d ⊙ x)) rounded to bf16) · w + b, 0)
  where d is spread along the rows' 128 entries and b along the 2000 rows.  On the extended reals the rounding is
  the identity and the matrix unit's product into a zero accumulator is the sum over the contracted axis, so the
  stored block is the graph-convolution layer of the loaded blocks.
-/
import proofs.«135196_j67877663146646_1_alg».proof.Proof.Gen.KernelIdeal.Frame
import proofs.«135196_j67877663146646_1_alg».proof.Proof.GraphConv
import proofs.«135196_j67877663146646_1_alg».proof.Proof.LibKeepdims
import Idealize.ShloMosaic.Lib.ValueLayout

noncomputable section

namespace Cert.KernelIdeal.BlockLayer

open Cert.KernelIdeal Cert.KernelIdeal.Gen Idealize.ShloMosaic Idealize.ShloMosaic.ValueIdx
open Cert.Lib.Dense Cert.Lib.Keepdims Cert.GraphConv
open scoped BigOperators

/-- The normalized block that enters the product, at (p, k): the rounding to bf16 is the identity, the degree
    column read at row p. -/
theorem lhs_at (d : FVec Ideal S2000x1 .f32) (agg x : FVec Ideal S2000x128 .f32) (p : Fin 2000) (k : Fin 128) :
    (truncf .bf16 (mulf (broadcastTo S2000x128 (shapeCast S2000x1 d Facts₀.shapeCasts_S2000x1_S2000x1) Facts₀.broadcasts_S2000x1_S2000x128)
        (addf (shapeCast S2000x128 agg Facts₀.shapeCasts_S2000x128_S2000x128)
          (mulf (broadcastTo S2000x128 (shapeCast S2000x1 d Facts₀.shapeCasts_S2000x1_S2000x1) Facts₀.broadcasts_S2000x1_S2000x128) x)))
        Facts₀.bitsLt_bf16_f32 : FVec Ideal S2000x128 .bf16) (ix2 p k)
      = normalized x agg d (ix2 p k) := by
  rw [truncf_apply, mulf_apply, addf_apply, mulf_apply, shapeCast_self, shapeCast_self,
    broadcastTo_a1_ab_apply, normalized_ix2]

/-- The bias row spread over the block's rows, at (p, q). -/
theorem bias_at (b : FVec Ideal S128 .f32) (p : Fin 2000) (q : Fin 128) :
    broadcastTo S2000x128 (shapeCast S1x128 b Facts₀.shapeCasts_S128_S1x128) Facts₀.broadcasts_S1x128_S2000x128 (ix2 p q)
      = b (ix1 q) := by
  rw [broadcastTo_1b_ab_apply, shapeCast_a_1a_apply]

/-- THE STORED BLOCK is the layer of the loaded blocks. -/
theorem payload_eq (d : FVec Ideal S2000x1 .f32) (agg x : FVec Ideal S2000x128 .f32) (w : FVec Ideal S128x128 .bf16)
    (b : FVec Ideal S128 .f32) :
    k0_pay1 (F := Ideal) d agg x w b = layer x agg d w b := by
  funext j
  obtain ⟨p, q, rfl⟩ : ∃ (p : Fin 2000) (q : Fin 128), j = ix2 p q := ⟨j 0, j 1, eq_ix2 j⟩
  unfold k0_pay1
  rw [layer_ix2]
  refine (maximumf_apply _ _ _).trans ?_
  refine congrArg₂ max ?_ rfl
  refine (addf_apply _ _ _).trans ?_
  refine congrArg₂ (· + ·) ?_ (bias_at b p q)
  refine (matmul_zero_at dot_S2000x128_S128x128_S2000x128_1_0_0_1_n_n rfl rfl rfl rfl rfl rfl _ _ p q).trans ?_
  unfold rowDot
  refine Finset.sum_congr rfl fun k _ => ?_
  rw [lhs_at d agg x p k, shapeCast_self]

theorem zero_offsets2 : (![0, 0] : Fin 2 → Nat) = fun _ => 0 := funext fun a => by fin_cases a <;> rfl
theorem zero_offsets1 : (![0] : Fin 1 → Nat) = fun _ => 0 := funext fun a => by fin_cases a; rfl

/-- WHAT THE BODY LEAVES in the output's buffer — its one store, through the whole buffer, of the payload of its
    five whole-buffer loads — is the layer of the five input blocks. -/
theorem stored_block (x agg : FVec Ideal S2000x128 .f32) (d : FVec Ideal S2000x1 .f32) (w : FVec Ideal S128x128 .bf16)
    (b : FVec Ideal S128 .f32) :
    out0_5 (F := Ideal) x agg d w b = layer x agg d w b := by
  unfold out0_5
  rw [View.canon_unit_zero zero_offsets2]
  simp only [View.ld_unit_zero (S := S2000x128) zero_offsets2, View.ld_unit_zero (S := S2000x1) zero_offsets2,
    View.ld_unit_zero (S := S128x128) zero_offsets2, View.ld_unit_zero (S := S128) zero_offsets1]
  exact payload_eq d agg x w b

end Cert.KernelIdeal.BlockLayer

end
-- ==== Proof.LayerBlocks.lean ====
/-
  The blocks of the five input arrays at a grid point, as rows of the whole arrays.

  The grid has 20 points; point t works on rows 2000·t … 2000·t + 1999: its blocks of the node features, of the
  neighbour sums and of the degree column are those rows of the three arrays, and the weight matrix and the bias
  are whole at every point.  A row of the layer reads only the same row of its inputs, so the layer of point t's
  blocks, at its row p, is the layer of the WHOLE arrays at row 2000·t + p.
-/
import proofs.«135196_j67877663146646_1_alg».proof.Proof.Gen.KernelIdeal.Frame
import proofs.«135196_j67877663146646_1_alg».proof.Proof.GraphConv

noncomputable section

open Idealize.ShloMosaic Idealize.ShloMosaic.TcCoe Idealize.SL.Sem
open Idealize.ShloMosaic.Pipeline (Dat)

namespace Cert.KernelIdeal.LayerBlocks

open Cert.KernelIdeal Cert.KernelIdeal.Gen Idealize.ShloMosaic.ValueIdx Cert.GraphConv

variable (m : (ℓ : Loc nD τ sig) → Buf (Elt Ideal) ℓ) (ρ : Dev nD → PrngReg)

/-- The layer of the five arrays as the launch finds them: what the result array will hold. -/
def wholeLayer (c : Dev nD) : Buf (Elt Ideal) ((c : Thread nD τ).loc main_v34) :=
  layer (M := 40000) (K := 128) (N := 128) (V m c main_arg0 : S40000x128.Idx → EReal) (V m c main_v30 : S40000x128.Idx → EReal)
    (V m c main_v31 : S40000x1.Idx → EReal) (V m c main_v33 : S128x128.Idx → EReal) (V m c main_arg3 : S128.Idx → EReal)

/-- The block indices of every window at every grid point, decided over the 20 points: the three row-blocked
    inputs and the output sit at block row t, the weights and the bias at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of point t's block of the node features is row 2000·t + p of the array. -/
theorem nodes_block (c : Dev nD) (t : Fin cfg0.N) (p : Fin 2000) (k : Fin 128) (P : Fin 40000)
    (hP : P.val = t.val * 2000 + p.val) :
    (iblk m c 0 t : S2000x128.Idx → EReal) (ix2 p k) = (V m c main_arg0 : S40000x128.Idx → EReal) (ix2 P k) := by
  obtain ⟨e0, e1, -⟩ := block_indices t
  unfold iblk
  rw [View.read_apply]
  show V m c main_arg0 _ = V m c main_arg0 _
  congr 1
  funext a
  apply Fin.ext
  match a with
  | ⟨0, _⟩ => show win0_0.index t (0 : Fin 2) * 2000 + 1 * p.val = P.val; omega
  | ⟨1, _⟩ => show win0_0.index t (1 : Fin 2) * 128 + 1 * k.val = k.val; omega

/-- Row p of point t's block of the neighbour sums is row 2000·t + p of the array. -/
theorem agg_block (c : Dev nD) (t : Fin cfg0.N) (p : Fin 2000) (k : Fin 128) (P : Fin 40000)
    (hP : P.val = t.val * 2000 + p.val) :
    (iblk m c 1 t : S2000x128.Idx → EReal) (ix2 p k) = (V m c main_v30 : S40000x128.Idx → EReal) (ix2 P k) := by
  obtain ⟨-, -, e0, e1, -⟩ := block_indices t
  unfold iblk
  rw [View.read_apply]
  show V m c main_v30 _ = V m c main_v30 _
  congr 1
  funext a
  apply Fin.ext
  match a with
  | ⟨0, _⟩ => show win0_1.index t (0 : Fin 2) * 2000 + 1 * p.val = P.val; omega
  | ⟨1, _⟩ => show win0_1.index t (1 : Fin 2) * 128 + 1 * k.val = k.val; omega

/-- Entry p of point t's block of the degree column is entry 2000·t + p of the column. -/
theorem dcol_block (c : Dev nD) (t : Fin cfg0.N) (p : Fin 2000) (P : Fin 40000)
    (hP : P.val = t.val * 2000 + p.val) :
    (iblk m c 2 t : S2000x1.Idx → EReal) (ix2 p (0 : Fin 1)) = (V m c main_v31 : S40000x1.Idx → EReal) (ix2 P (0 : Fin 1)) := by
  obtain ⟨-, -, -, -, e0, e1, -⟩ := block_indices t
  unfold iblk
  rw [View.read_apply]
  show V m c main_v31 _ = V m c main_v31 _
  congr 1
  funext a
  apply Fin.ext
  match a with
  | ⟨0, _⟩ => show win0_2.index t (0 : Fin 2) * 2000 + 1 * p.val = P.val; omega
  | ⟨1, _⟩ => show win0_2.index t (1 : Fin 2) * 1 + 1 * 0 = 0; omega

/-- Every point's block of the weights is the whole matrix. -/
theorem weights_block (c : Dev nD) (t : Fin cfg0.N) :
    (iblk m c 3 t : S128x128.Idx → EReal) = (V m c main_v33 : S128x128.Idx → EReal) := by
  obtain ⟨-, -, -, -, -, -, e0, e1, -⟩ := block_indices t
  funext y
  unfold iblk
  rw [View.read_apply]
  show V m c main_v33 _ = V m c main_v33 y
  congr 1
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Every point's block of the bias is the whole row. -/
theorem bias_block (c : Dev nD) (t : Fin cfg0.N) :
    (iblk m c 4 t : S128.Idx → EReal) = (V m c main_arg3 : S128.Idx → EReal) := by
  obtain ⟨-, -, -, -, -, -, -, -, e0, -⟩ := block_indices t
  funext y
  unfold iblk
  rw [View.read_apply]
  show V m c main_arg3 _ = V m c main_arg3 y
  congr 1
  funext a
  apply Fin.ext
  match a with
  | ⟨0, _⟩ => show win0_4.index t (0 : Fin 1) * 128 + 1 * (y 0).val = (y 0).val; omega

/-- The layer of point t's blocks, at (p, q), is the layer of the whole arrays at row 2000·t + p. -/
theorem block_layer_at (c : Dev nD) (t : Fin cfg0.N) (p : Fin 2000) (q : Fin 128) (P : Fin 40000)
    (hP : P.val = t.val * 2000 + p.val) :
    layer (M := 2000) (K := 128) (N := 128) (iblk m c 0 t : S2000x128.Idx → EReal) (iblk m c 1 t : S2000x128.Idx → EReal)
        (iblk m c 2 t : S2000x1.Idx → EReal) (iblk m c 3 t : S128x128.Idx → EReal) (iblk m c 4 t : S128.Idx → EReal) (ix2 p q)
      = (wholeLayer m c : S40000x128.Idx → EReal) (ix2 P q) := by
  rw [weights_block m c t, bias_block m c t]
  exact layer_rows _ _ _ _ _ _ _ _ p P q (fun k => nodes_block m c t p k P hP) (fun k => agg_block m c t p k P hP)
    (dcol_block m c t p P hP)

end Cert.KernelIdeal.LayerBlocks

end
-- ==== Proof.LayerArray.lean ====
/-
  From what each grid point stores to the whole result array.

  What point t writes back is the layer of its five input blocks, that is rows 2000·t … 2000·t + 1999 of the layer of
  the whole arrays; the 20 blocks cover all 40000 rows (row r belongs to point r / 2000), so the result array ends
  as that layer.
-/
import proofs.«135196_j67877663146646_1_alg».proof.Proof.Gen.KernelIdeal.Value
import proofs.«135196_j67877663146646_1_alg».proof.Proof.BlockLayer
import proofs.«135196_j67877663146646_1_alg».proof.Proof.LayerBlocks

noncomputable section

open Idealize.ShloMosaic Idealize.ShloMosaic.TcCoe Idealize.SL.Sem
open Idealize.ShloMosaic.Pipeline (Dat)

namespace Cert.KernelIdeal.LayerArray

open Cert.KernelIdeal Cert.KernelIdeal.Gen Idealize.ShloMosaic.ValueIdx Cert.GraphConv Cert.KernelIdeal.LayerBlocks

variable (m : (ℓ : Loc nD τ sig) → Buf (Elt Ideal) ℓ) (ρ : Dev nD → PrngReg)

/-- Entry y of the layer of point t's blocks is the whole layer at y's place in the result array. -/
theorem block_entry (c : Dev nD) (t : Fin cfg0.N) (y : S2000x128.Idx) :
    layer (M := 2000) (K := 128) (N := 128) (iblk m c 0 t : S2000x128.Idx → EReal) (iblk m c 1 t : S2000x128.Idx → EReal)
        (iblk m c 2 t : S2000x1.Idx → EReal) (iblk m c 3 t : S128x128.Idx → EReal) (iblk m c 4 t : S128.Idx → EReal) y
      = (wholeLayer m c : S40000x128.Idx → EReal) (((cfg0.win 5).blk t).view.emb y) := by
  have ht : t.val < 20 := lt_of_lt_of_eq t.isLt N_0
  obtain ⟨-, -, -, -, -, -, -, -, -, e0, e1⟩ := block_indices t
  obtain ⟨p, q, rfl⟩ : ∃ (p : Fin 2000) (q : Fin 128), y = ix2 p q := ⟨y 0, y 1, eq_ix2 y⟩
  have hrow : ((cfg0.win 5).blk t).view.emb (ix2 p q) = ix2 (⟨t.val * 2000 + p.val, by omega⟩ : Fin 40000) q := by
    funext a
    apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  rw [hrow]
  exact block_layer_at m c t p q _ rfl

/-- WHAT POINT t WRITES BACK is its block of rows of the whole layer. -/
theorem flushed_eq (c : Dev nD) (t : Fin cfg0.N) :
    (dats m 0 c).flushed 5 t = ((cfg0.win 5).blk t).view.read (Elt Ideal) (wholeLayer m c) := by
  rw [Cert.KernelIdeal.Value.flushed5]
  rw [Cert.KernelIdeal.BlockLayer.stored_block (iblk m c 0 t) (iblk m c 1 t) (iblk m c 2 t) (iblk m c 3 t) (iblk m c 4 t)]
  funext j
  rw [View.read_apply]
  exact block_entry m c t j

/-- An index of the result array is in point t's block iff each coordinate is in the block's range on its axis. -/
theorem mem_block (t : Fin cfg0.N) (i : S40000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v34).slice (win0_5.rect t)).set ↔ _
  rw [View.set_slice_whole, Rect.mem_set_unit]
  exact Iff.rfl

/-- Row r of the result belongs to the block of point r / 2000. -/
theorem covered (i : S40000x128.Idx) :
    ∃ t : Fin cfg0.N, (cfg0.win 5).flush t = true ∧ i ∈ ((cfg0.win 5).blk t).view.set := by
  have h0 : (i 0).val < 40000 := (i 0).isLt
  have h1 : (i 1).val < 128 := (i 1).isLt
  have hN : cfg0.N = 20 := N_0
  let t : Fin cfg0.N := ⟨(i 0).val / 2000, by rw [hN]; omega⟩
  obtain ⟨-, -, -, -, -, -, -, -, -, e0, e1⟩ := block_indices t
  have ht : t.val = (i 0).val / 2000 := rfl
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- THE RESULT ARRAY after the run is the layer of the five arrays the launch found. -/
theorem final (c : Dev nD) : (dats m 0 c).arrAt 5 cfg0.N = wholeLayer m c :=
  (dats m 0 c).arrAt_eq_of_cover 5 (wholeLayer m c) (fun t _ => flushed_eq m c t) covered

/-- The kernel program's run, read: the result array at the whole layer, the arguments unchanged. -/
theorem run : θ_run defs (onTc (τ := τ) (main (F := Ideal))) ⟨m, fun _ => 0, ρ⟩ fun r => ∀ c : Dev nD,
      r.2.mem ((c : Thread nD τ).loc main_v34) = wholeLayer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.LayerArray

end
-- ==== Proof.HostHead.lean ====
/-
  What the kernel's launch finds in the three arrays the host computes before it.

  Before the launch the host program sums, for every node, the normalized features of its neighbours (agg), takes
  the inverse square roots of the degrees as a column (d), and transposes the weight matrix, rounding it to bf16 (the
  identity on the extended reals).  The reference program computes the same three arrays by the same operations in
  the same order, so each array is the reference's own stage of the arguments: the gathers and scatter-additions
  are never opened, only recognised as the same expression on both sides.
-/
import proofs.«135196_j67877663146646_1_alg».proof.Proof.Gen.KernelIdeal.Frame
import proofs.«135196_j67877663146646_1_alg».proof.Proof.Gen.ReferenceIdeal.Read

noncomputable section

namespace Cert.KernelIdeal.HostHead

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The neighbour sums the launch finds are the reference's scatter-addition stage of the same arguments. -/
theorem agg_eq (c : Dev nD) :
    (V m c main_v30 : S40000x128.Idx → EReal)
      = Cert.ReferenceIdeal.Read.val_main_v30 (F := Ideal) (m ((c : Thread nD τ).loc main_arg0)) (m ((c : Thread nD τ).loc main_arg1)) := by
  dsimp only [V, hostOps0]
  after_results_simp
  rfl

/-- The degree column the launch finds is the reference's column of inverse square roots. -/
theorem dcol_eq (c : Dev nD) :
    (V m c main_v31 : S40000x1.Idx → EReal)
      = Cert.ReferenceIdeal.Read.val_main_v31 (F := Ideal) (m ((c : Thread nD τ).loc main_arg1)) := by
  dsimp only [V, hostOps0]
  after_results_simp
  rfl

/-- The weights the launch finds are the reference's transposed weight matrix (rounding to bf16 is the identity). -/
theorem wt_eq (c : Dev nD) :
    (V m c main_v33 : S128x128.Idx → EReal)
      = Cert.ReferenceIdeal.Read.val_main_v38 (F := Ideal) (m ((c : Thread nD τ).loc main_arg2)) := by
  dsimp only [V, hostOps0]
  after_results_simp
  rfl

end Cert.KernelIdeal.HostHead

end
-- ==== Proof.RefLayer.lean ====
/-
  The reference program's result, entry by entry.

  After the neighbour sums agg, the degree column d and the transposed weights w, the reference spreads d along
  the rows, forms d ⊙ (agg + d ⊙ x), contracts it with w by the host's general dot product, adds the bias row spread
  over the rows, and takes the larger of that and zero.  On the extended reals the dot product at (p, q) is the sum
  over k of the left factor at (p, k) times w at (k, q): the result is the graph-convolution layer of x, agg, d, w
  and b.  The two copies of the degree column the reference makes are one array.
-/
import proofs.«135196_j67877663146646_1_alg».proof.Proof.Gen.ReferenceIdeal.Read
import proofs.«135196_j67877663146646_1_alg».proof.Proof.GraphConv

noncomputable section

namespace Cert.ReferenceIdeal.RefLayer

open Cert.ReferenceIdeal Cert.ReferenceIdeal.Gen Cert.ReferenceIdeal.Read Idealize.ShloMosaic Idealize.ShloMosaic.ValueIdx
open Cert.Lib.Dense Cert.GraphConv
open scoped BigOperators

/-- The two degree columns are one array. -/
theorem dcol_twice (x1 : (⟨S2x640000, .i32⟩ : BufTy).Contents (Elt Ideal)) :
    val_main_v32 (F := Ideal) x1 = val_main_v31 (F := Ideal) x1 := rfl

theorem lidx_at (p : Fin 40000) (q k : Fin 128) : lidx_main_v39 (ix2 p q) k = ix2 p k :=
  funext fun a => Fin.ext (by match a with | ⟨0, _⟩ => rfl | ⟨1, _⟩ => rfl)

theorem ridx_at (p : Fin 40000) (q k : Fin 128) : ridx_main_v39 (ix2 p q) k = ix2 k q :=
  funext fun a => Fin.ext (by match a with | ⟨0, _⟩ => rfl | ⟨1, _⟩ => rfl)

theorem col_at36 (p : Fin 40000) (k : Fin 128) : idx_main_v36 (ix2 p k) = ix2 p (0 : Fin 1) :=
  funext fun a => Fin.ext (by match a with | ⟨0, _⟩ => rfl | ⟨1, _⟩ => rfl)

theorem col_at33 (p : Fin 40000) (k : Fin 128) : idx_main_v33 (ix2 p k) = ix2 p (0 : Fin 1) :=
  funext fun a => Fin.ext (by match a with | ⟨0, _⟩ => rfl | ⟨1, _⟩ => rfl)

theorem bias_idx (p : Fin 40000) (q : Fin 128) : idx_main_v40 (idx_main_v41 (ix2 p q)) = ix1 q :=
  funext fun a => Fin.ext (by match a with | ⟨0, _⟩ => rfl)

/-- The left factor of the contraction at (p, k) is the normalized entry. -/
theorem lhs_at (x0 : (⟨S40000x128, .f32⟩ : BufTy).Contents (Elt Ideal)) (x1 : (⟨S2x640000, .i32⟩ : BufTy).Contents (Elt Ideal))
    (p : Fin 40000) (k : Fin 128) :
    val_main_v37 (F := Ideal) x0 x1 (ix2 p k)
      = normalized x0 (val_main_v30 (F := Ideal) x0 x1) (val_main_v31 (F := Ideal) x1) (ix2 p k) := by
  rw [val_main_v37_apply, val_main_v36_apply, val_main_v35_apply, val_main_v34_apply, val_main_v33_apply,
    col_at36, col_at33, dcol_twice, normalized_ix2]
  rfl

/-- THE REFERENCE'S RESULT is the layer of the arguments and the three host arrays. -/
theorem result_eq (x0 : (⟨S40000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal)) :
    val_main_v43 (F := Ideal) x0 x1 x2 x3
      = layer x0 (val_main_v30 (F := Ideal) x0 x1) (val_main_v31 (F := Ideal) x1) (val_main_v38 (F := Ideal) x2) x3 := by
  funext i
  obtain ⟨p, q, rfl⟩ : ∃ (p : Fin 40000) (q : Fin 128), i = ix2 p q := ⟨i 0, i 1, eq_ix2 i⟩
  rw [layer_ix2, val_main_v43_apply, val_main_v42_apply, val_main_v39_apply, val_main_call0_v0_apply,
    val_main_call0_cst_apply, val_main_v41_apply, val_main_v40_apply, bias_idx, Ideal.ofBits_def]
  refine congrArg₂ max ?_ rfl
  refine congrArg₂ (· + ·) ?_ rfl
  unfold rowDot
  refine Finset.sum_congr rfl fun k _ => ?_
  rw [lidx_at, ridx_at, lhs_at]

end Cert.ReferenceIdeal.RefLayer

end
-- ==== Proof.lean ====
/-
  A graph-convolution layer: the kernel program against its reference, on the extended reals.

  Both programs first compute, by the same host operations in the same order, the degrees' inverse square roots d
  and the neighbour sums agg (a gather, a product with the gathered d, a scatter-addition).  The reference then
  forms relu ((d ⊙ (agg + d ⊙ x)) · Wᵀ + b) on whole arrays; the kernel program transposes W on the host and
  computes the same expression 2000 rows at a time on a grid of 20 points, the left factor rounded to bf16 before
  the product.  On the extended reals the rounding is the identity and both matrix products are the sum over the
  contracted axis, so entry (p, q) of either result is
      max (∑ k, d(p) · (agg(p, k) + d(p) · x(p, k)) · W(q, k) + b(q), 0)
  — one expression, in one order: no law of arithmetic, and so no finiteness of the inputs, is needed.
  The modules: GraphConv states the layer; BlockLayer reads what one grid point stores; LayerBlocks reads each
  grid point's input blocks as rows of the whole arrays; LayerArray assembles the result array from the 20 output
  blocks; HostHead recognises the three host-computed arrays as the reference's own stages; RefLayer reads the
  reference's result.  The frames of the two kernel programs are the generated ones, the reference's frame is its
  generated run.
-/
import proofs.«135196_j67877663146646_1_alg».proof.Defs
import proofs.«135196_j67877663146646_1_alg».proof.Proof.Gen.Kernel
import proofs.«135196_j67877663146646_1_alg».proof.Proof.Gen.Kernel.Skeleton
import proofs.«135196_j67877663146646_1_alg».proof.Proof.Gen.Kernel.Launch
import proofs.«135196_j67877663146646_1_alg».proof.Proof.Gen.Kernel.Points
import proofs.«135196_j67877663146646_1_alg».proof.Proof.Gen.Kernel.Frame
import proofs.«135196_j67877663146646_1_alg».proof.Proof.Gen.KernelIdeal
import proofs.«135196_j67877663146646_1_alg».proof.Proof.Gen.KernelIdeal.Skeleton
import proofs.«135196_j67877663146646_1_alg».proof.Proof.Gen.KernelIdeal.Launch
import proofs.«135196_j67877663146646_1_alg».proof.Proof.Gen.KernelIdeal.Points
import proofs.«135196_j67877663146646_1_alg».proof.Proof.Gen.KernelIdeal.Frame
import proofs.«135196_j67877663146646_1_alg».proof.Proof.Gen.ReferenceIdeal
import proofs.«135196_j67877663146646_1_alg».proof.Proof.Gen.Pre_finite_inputs
import proofs.«135196_j67877663146646_1_alg».proof.Proof.Gen.KernelIdeal.Value
import proofs.«135196_j67877663146646_1_alg».proof.Proof.Gen.ReferenceIdeal.Run
import proofs.«135196_j67877663146646_1_alg».proof.Proof.Gen.ReferenceIdeal.Read
import proofs.«135196_j67877663146646_1_alg».proof.Proof.LayerArray
import proofs.«135196_j67877663146646_1_alg».proof.Proof.HostHead
import proofs.«135196_j67877663146646_1_alg».proof.Proof.RefLayer
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The kernel program's result as a function of the arguments: the layer of x, of the reference's own neighbour
    sums and degree column of (x, edges), of the transposed weights and of the bias. -/
theorem kernel_result (m : (ℓ : Loc Cert.KernelIdeal.nD Cert.KernelIdeal.τ Cert.KernelIdeal.sig) → Buf (Elt Ideal) ℓ)
    (c : Dev Cert.KernelIdeal.nD) :
    (Cert.KernelIdeal.LayerBlocks.wholeLayer m c : Cert.KernelIdeal.S40000x128.Idx → EReal)
      = Cert.GraphConv.layer (M := 40000) (K := 128) (N := 128)
          (m ((c.tc : Thread Cert.KernelIdeal.nD Cert.KernelIdeal.τ).loc Cert.KernelIdeal.main_arg0))
          (Cert.ReferenceIdeal.Read.val_main_v30 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
          (Cert.ReferenceIdeal.Read.val_main_v31 (F := Ideal)
            (m ((c.tc : Thread Cert.KernelIdeal.nD Cert.KernelIdeal.τ).loc Cert.KernelIdeal.main_arg1)))
          (Cert.ReferenceIdeal.Read.val_main_v38 (F := Ideal)
            (m ((c.tc : Thread Cert.KernelIdeal.nD Cert.KernelIdeal.τ).loc Cert.KernelIdeal.main_arg2)))
          (m ((c.tc : Thread Cert.KernelIdeal.nD Cert.KernelIdeal.τ).loc Cert.KernelIdeal.main_arg3)) := by
  unfold Cert.KernelIdeal.LayerBlocks.wholeLayer
  rw [Cert.KernelIdeal.HostHead.agg_eq m c, Cert.KernelIdeal.HostHead.dcol_eq m c, Cert.KernelIdeal.HostHead.wt_eq m c,
    Cert.KernelIdeal.Gen.V_main_arg0 m c, Cert.KernelIdeal.Gen.V_main_arg3 m c]

/-- From memories that agree on the arguments both programs end with the same result array: the kernel program's
    is the layer assembled from its 20 blocks, the reference's is the layer read off its operations. -/
theorem algebraic : Cert.algebraic_KernelIdeal_ReferenceIdeal := by
  intro m ρ m' ρ' _ hagree
  refine ⟨fun c => Cert.KernelIdeal.LayerBlocks.wholeLayer m c, Cert.KernelIdeal.LayerArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefLayer.result_eq,
    (hagree c).1, (hagree c).2.1, (hagree c).2.2.1, (hagree c).2.2.2]
  exact (kernel_result m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
